-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S10000x512 .f32) (main_arg1 : FVec F S10000x10000 .f32) (main_arg2 : FVec F S512x512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S10000x512 : Shape := ⟨2, ![10000, 512]⟩
abbrev S10000x10000 : Shape := ⟨2, ![10000, 10000]⟩
abbrev S512x512 : Shape := ⟨2, ![512, 512]⟩
abbrev S2000x512 : Shape := ⟨2, ![2000, 512]⟩
abbrev S200x10000 : Shape := ⟨2, ![200, 10000]⟩
abbrev S400x512 : Shape := ⟨2, ![400, 512]⟩
abbrev S200x512 : Shape := ⟨2, ![200, 512]⟩

abbrev nBuf : Space → Nat
  | .hbm => 5
  | .vmem => 12
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S10000x512, .bf16⟩
  | .hbm, ⟨4, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .bf16⟩
  | .local _ .vmem, ⟨4, _⟩ => ⟨S2000x512, .bf16⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S10000x512, .bf16⟩
  | .local _ .vmem, ⟨10, _⟩ => ⟨S400x512, .f32⟩
  | .local _ .vmem, ⟨11, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S2000x512_S2000x512_0_0 : (Rect.unit (s := S2000x512) ![0, 0] S2000x512.size inb_S2000x512_S2000x512_0_0).PackedRows (EltTy.packing .bf16)
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S200x10000_S200x10000_0_0 : ∀ a, (![0, 0] : Fin 2 → Nat) a + S200x10000.size a ≤ S200x10000.size a
  h_S200x10000 : 0 < S200x10000.numel
  inb_S400x512_S200x512_0_0 : ∀ a, (![0, 0] : Fin 2 → Nat) a + S200x512.size a ≤ S400x512.size a
  h_S200x512 : 0 < S200x512.numel
  inb_S400x512_S200x512_200_0 : ∀ a, (![200, 0] : Fin 2 → Nat) a + S200x512.size a ≤ S400x512.size a
  dot_S2000x512_S512x512_S2000x512_1_0_0_1_n_n_wf : DotDims.WF S2000x512 S512x512 S2000x512 [1] [0] [0] [1] [] []
  dot_S200x10000_S10000x512_S200x512_1_0_0_1_n_n_wf : DotDims.WF S200x10000 S10000x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .bf16 = 32 ∨ (Rect.block (s := S10000x512) S2000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x512.size a ≤ S10000x512.size a
  hwx1_2 : ∀ i : grid1.Coords, EltTy.bits .bf16 = 32 ∨ (Rect.block (s := S10000x512) S10000x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x512.size a ≤ S10000x512.size a
  hwx1_3 : ∀ i : grid1.Coords, EltTy.bits .f32 = 32 ∨ (Rect.block (s := S10000x512) S400x512.size (cc1_transform_3 i) (hinb1_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S10000x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S10000x512, .f32⟩
  | .hbm, ⟨4, _⟩ => ⟨S10000x512, .f32⟩
  | .hbm, ⟨5, _⟩ => ⟨S_, .f32⟩
  | .hbm, ⟨6, _⟩ => ⟨S10000x512, .f32⟩
  | .hbm, ⟨7, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.XwKernel.lean ====
/-
  The first region: support = features · weight, five row blocks of 2000 rows.  At a grid point the body reads the
  point's 2000×512 block of the features and the whole 512×512 weight, and overwrites the point's output block with
  their matrix product (rounded to the narrower format at the word level, unchanged on the extended reals).  Stated here,
  at any float instance: what the output block holds after the body as a function of the two input blocks, the body's
  triple, the proof data of the pipeline at entry contents `V`, and the body obligation at every point.
-/
import proofs.«134342_g12137577578942_retrytranche1_717_10_alg».proof.Proof.Gen.Kernel.Launch
import proofs.«134342_g12137577578942_retrytranche1_717_10_alg».proof.Proof.Gen.Kernel.Skeleton
import proofs.«134342_g12137577578942_retrytranche1_717_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Xw

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features window's buffer holds the point's block of the features at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight at every point, though fetched at the first only: its block index never moves. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's accesses: each is the whole of its buffer. -/
abbrev rX : Rect S2000x512 := Rect.unit (s := S2000x512) ![0, 0] S2000x512.size Gen.inb_S2000x512_S2000x512_0_0
abbrev rW : Rect S512x512 := Rect.unit (s := S512x512) ![0, 0] S512x512.size Gen.inb_S512x512_S512x512_0_0

/-- The output block after the body: its one store, of the product of the two blocks read. -/
def out (x0 : Vec F S2000x512 .f32) (x1 : Vec F S512x512 .f32) : Vec F S2000x512 .bf16 :=
  View.canon [⟨rX, k0_pay1 (View.ld x0 rX) (View.ld x1 rW)⟩]

/-- The store covers the block. -/
theorem cover (p0 : Vec F S2000x512 .bf16) (y : S2000x512.Idx) :
    ∃ pc ∈ ([⟨rX, p0⟩] : List (View.Piece (Elt F) S2000x512 .bf16)), y ∈ pc.1.set :=
  View.cover_of_tiled [⟨rX, p0⟩] S2000x512.size (by rfl) y

set_option maxHeartbeats 1000000 in
/-- The body on whole staging buffers: the inputs' contents read `x0`, `x1` and stay; the output's are anything before
    and `out x0 x1` after. -/
theorem sound_kernel (c : Dev nD) (E : Set ℕ) (i : grid0.Coords)
    (arg1 : Memref sig .tc .vmem S2000x512 .f32) (harg1 : arg1.IsWhole) (arg2 : Memref sig .tc .vmem S512x512 .f32) (harg2 : arg2.IsWhole)
    (arg3 : Memref sig .tc .vmem S2000x512 .bf16) (harg3 : arg3.IsWhole)
    (x0 : Vec F S2000x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__xw_body i arg1 harg1 arg2 harg2 arg3 harg3) K := by
  simp only [cc0__xw_body_eq_skeleton]; unfold cc0__xw_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of the first pipeline on core `c`: the arrays as the region finds them; after the body each input's
    buffer at its block and the output's at `out` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_x (c : Dev nD) (t : Fin cfg0.N) (d) : (dat V c).before 0 t d = iblk V c 0 t :=
  before_x_of V (dat V c) (A_eq V c 0) (after_0 V c) t d
theorem before_w (c : Dev nD) (t : Fin cfg0.N) (d) : (dat V c).before 1 t d = iblk V c 1 t :=
  before_w_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the body's triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Xw

end
-- ==== Proof.SpmmKernel.lean ====
/-
  The second region: out = max(adj · support, 0), twenty-five blocks of 400 output rows.  The adjacency reaches the body
  through TWO windows on the one array — the even and the odd 200-row panels — so the body at a grid point reads panel 2t
  and panel 2t+1 of the adjacency and the whole support, and writes the upper half of the point's 400×512 output block from
  the first panel and the lower half from the second: each half the matrix product of its panel with the support, clamped
  below at zero.  Stated here, at any float instance: what the output block holds after the body as a function of the
  three input blocks, the body's triple, the proof data of the pipeline at entry contents `V` (the two adjacency windows
  holding a half share of the array each), and the body obligation at every point.
-/
import proofs.«134342_g12137577578942_retrytranche1_717_10_alg».proof.Proof.Gen.Kernel.Launch
import proofs.«134342_g12137577578942_retrytranche1_717_10_alg».proof.Proof.Gen.Kernel.Skeleton
import proofs.«134342_g12137577578942_retrytranche1_717_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Spmm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first adjacency window's buffer holds the point's even panel at every point. -/
theorem before_even_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second adjacency window's buffer holds the point's odd panel at every point. -/
theorem before_odd_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The support window's buffer holds the whole support at every point, though fetched at the first only: its block index never moves. -/
theorem before_sup_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's accesses: a whole adjacency panel, the whole support, and the two halves of the output block. -/
abbrev rA : Rect S200x10000 := Rect.unit (s := S200x10000) ![0, 0] S200x10000.size Gen.inb_S200x10000_S200x10000_0_0
abbrev rS : Rect S10000x512 := Rect.unit (s := S10000x512) ![0, 0] S10000x512.size Gen.inb_S10000x512_S10000x512_0_0
abbrev rTop : Rect S400x512 := Rect.unit (s := S400x512) ![0, 0] S200x512.size Gen.inb_S400x512_S200x512_0_0
abbrev rBot : Rect S400x512 := Rect.unit (s := S400x512) ![200, 0] S200x512.size Gen.inb_S400x512_S200x512_200_0

/-- The output block after the body: its two stores, the later first — the lower half from the odd panel, the upper half
    from the even one. -/
def out (a0 a1 : Vec F S200x10000 .f32) (s : Vec F S10000x512 .bf16) : Vec F S400x512 .f32 :=
  View.canon [⟨rBot, k1_pay3 (View.ld s rS) (View.ld a1 rA)⟩, ⟨rTop, k1_pay2 (View.ld s rS) (View.ld a0 rA)⟩]

/-- The two halves tile the block. -/
theorem cover (p1 p0 : Vec F S200x512 .f32) (y : S400x512.Idx) :
    ∃ pc ∈ ([⟨rBot, p1⟩, ⟨rTop, p0⟩] : List (View.Piece (Elt F) S400x512 .f32)), y ∈ pc.1.set :=
  View.cover_of_tiled [⟨rBot, p1⟩, ⟨rTop, p0⟩] S200x512.size (by rfl) y

set_option maxHeartbeats 1000000 in
/-- The body on whole staging buffers: the inputs' contents read `a0`, `a1`, `s` and stay; the output's are anything
    before and `out a0 a1 s` after. -/
theorem sound_kernel (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x512 .bf16) (harg3 : arg3.IsWhole) (arg4 : Memref sig .tc .vmem S400x512 .f32) (harg4 : arg4.IsWhole)
    (a0 a1 : Vec F S200x10000 .f32) (s : Vec F S10000x512 .bf16) (K : PUnit → sProp 𝕄) :
    iprop(owns (c : Thread nD τ) arg1 fullShare a0 ∗ owns (c : Thread nD τ) arg2 fullShare a1 ∗ owns (c : Thread nD τ) arg3 fullShare s
        ∗ (∃ d, owns (c : Thread nD τ) arg4 fullShare d)
        ∗ (iprop(owns (c : Thread nD τ) arg1 fullShare a0 ∗ owns (c : Thread nD τ) arg2 fullShare a1 ∗ owns (c : Thread nD τ) arg3 fullShare s
            ∗ owns (c : Thread nD τ) arg4 fullShare (out a0 a1 s)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-- The proof data of the second pipeline on core `c`: the arrays as the region finds them; after the body each input's
    buffer at its block and the output's at `out` of the input blocks; the invariant the scoped rest and the generator
    register, untouched; nothing owed; the adjacency's full share dealt in halves to the two windows on it. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out (iblk V c 0 t) (iblk V c 1 t) (iblk V c 2 t) := by dsimp only [dat]

theorem before_even (c : Dev nD) (t : Fin cfg1.N) (d) : (dat V c).before 0 t d = iblk V c 0 t :=
  before_even_of V (dat V c) (A_eq V c 0) (after_0 V c) t d
theorem before_odd (c : Dev nD) (t : Fin cfg1.N) (d) : (dat V c).before 1 t d = iblk V c 1 t :=
  before_odd_of V (dat V c) (A_eq V c 1) (after_1 V c) t d
theorem before_sup (c : Dev nD) (t : Fin cfg1.N) (d) : (dat V c).before 2 t d = iblk V c 2 t :=
  before_sup_of V (dat V c) (A_eq V c 2) (after_2 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_even, before_odd, before_sup]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W1, bigSep_W1]
  exact sound_body V c t

end Cert.Kernel.Spmm

end
-- ==== Proof.SharedKernel.lean ====
/-
  The second region reads the adjacency through two windows.  A window holds its array at a share; the two windows on the
  adjacency hold a half each.  Proved here: a core's unscoped buffers, each whole at the full share at contents `V`, are the
  second pipeline's arrays at `V` — the adjacency's full share split in its left and right halves, the support and the
  output array whole — beside the two buffers no window of the region touches; and back.
-/
import proofs.«134342_g12137577578942_retrytranche1_717_10_alg».proof.Proof.Gen.Kernel.Launch
import Idealize.ShloMosaic.Lib.Pipeline.Frame
import Idealize.ShloMosaic.Lib.Pipeline.RegionsLoop

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} (dat : Dat τ (Elt F) Unit ℕ (UR sig nD τ) ℕ cfg1 c)
  (V : (b : Ref sig .tc) → Buf (Elt F) ((c : Thread nD τ).loc b))
  (G : (w : Fin cfg1.W) → Buf (Elt F) ((cfg1.win w).arr.view.loc (c : Thread nD τ)))

theorem split (h0 : dat.share 0 = fullShare.left) (h1 : dat.share 1 = fullShare.right) (h2 : dat.share 2 = fullShare) (h3 : dat.share 3 = fullShare)
    (hG : ∀ w, G w = V (Pipeline.arrRef spec1 w)) :
    (unscopedBufs c V : sProp 𝕄) ⊢ iprop(dat.arrays G ∗ Pipeline.unscopedRest spec1 c V) := by
  rw [Pipeline.unscopedBufs_split₀ cfgs 1 winFacts₀1.arr_unscoped c V]
  refine sep_mono ?_ .rfl
  unfold Pipeline.arrBufs Dat.arrays
  rw [bigSep_eq_bigSepL_of_eq [main_arg1, main_v0, main_v1] (by decide) (by decide), bigSep_W1]
  rw [h0, h1, h2, h3, hG 0, hG 1, hG 2, hG 3, (arr_whole1 0).set_eq_univ, (arr_whole1 2).set_eq_univ, (arr_whole1 3).set_eq_univ]
  show iprop(((c : Thread nD τ).loc main_arg1 ↦{fullShare} V main_arg1) ∗ ((c : Thread nD τ).loc main_v0 ↦{fullShare} V main_v0) ∗ ((c : Thread nD τ).loc main_v1 ↦{fullShare} V main_v1))
    ⊢ (iprop(((c : Thread nD τ).loc main_arg1 ↦{fullShare.left} V main_arg1) ∗ ((c : Thread nD τ).loc main_arg1 ↦{fullShare.right} V main_arg1)
      ∗ ((c : Thread nD τ).loc main_v0 ↦{fullShare} V main_v0) ∗ ((c : Thread nD τ).loc main_v1 ↦{fullShare} V main_v1)) : sProp 𝕄)
  iintro ⟨Ha, Hs, Ho⟩
  have hs : (((c : Thread nD τ).loc main_arg1 ↦{fullShare} V main_arg1) : sProp 𝕄)
      ⊢ iprop(((c : Thread nD τ).loc main_arg1 ↦{fullShare.left} V main_arg1) ∗ ((c : Thread nD τ).loc main_arg1 ↦{fullShare.right} V main_arg1)) :=
    (pointsTo_share (PosShare.mem_left_op_right fullShare)).1
  ihave H := hs $$ Ha
  icases H with ⟨Hl, Hr⟩
  isplitl [Hl]; · iexact Hl
  isplitl [Hr]; · iexact Hr
  isplitl [Hs]; · iexact Hs
  iexact Ho

theorem join (h0 : dat.share 0 = fullShare.left) (h1 : dat.share 1 = fullShare.right) (h2 : dat.share 2 = fullShare) (h3 : dat.share 3 = fullShare)
    (hG : ∀ w, G w = V (Pipeline.arrRef spec1 w)) :
    iprop(dat.arrays G ∗ Pipeline.unscopedRest spec1 c V) ⊢ (unscopedBufs c V : sProp 𝕄) := by
  rw [Pipeline.unscopedBufs_split₀ cfgs 1 winFacts₀1.arr_unscoped c V]
  refine sep_mono ?_ .rfl
  unfold Pipeline.arrBufs Dat.arrays
  rw [bigSep_eq_bigSepL_of_eq [main_arg1, main_v0, main_v1] (by decide) (by decide), bigSep_W1]
  rw [h0, h1, h2, h3, hG 0, hG 1, hG 2, hG 3, (arr_whole1 0).set_eq_univ, (arr_whole1 2).set_eq_univ, (arr_whole1 3).set_eq_univ]
  show (iprop(((c : Thread nD τ).loc main_arg1 ↦{fullShare.left} V main_arg1) ∗ ((c : Thread nD τ).loc main_arg1 ↦{fullShare.right} V main_arg1)
      ∗ ((c : Thread nD τ).loc main_v0 ↦{fullShare} V main_v0) ∗ ((c : Thread nD τ).loc main_v1 ↦{fullShare} V main_v1)) : sProp 𝕄)
    ⊢ iprop(((c : Thread nD τ).loc main_arg1 ↦{fullShare} V main_arg1) ∗ ((c : Thread nD τ).loc main_v0 ↦{fullShare} V main_v0) ∗ ((c : Thread nD τ).loc main_v1 ↦{fullShare} V main_v1))
  iintro ⟨Hl, Hr, Hs, Ho⟩
  isplitl [Hl Hr]
  · have hj : (iprop(((c : Thread nD τ).loc main_arg1 ↦{fullShare.left} V main_arg1) ∗ ((c : Thread nD τ).loc main_arg1 ↦{fullShare.right} V main_arg1)) : sProp 𝕄)
        ⊢ ((c : Thread nD τ).loc main_arg1 ↦{fullShare} V main_arg1) :=
      (pointsTo_share (PosShare.mem_left_op_right fullShare)).2
    iapply hj
    isplitl [Hl]; · iexact Hl
    iexact Hr
  isplitl [Hs]; · iexact Hs
  iexact Ho

/-- The same back, at a valuation `V'` that has the arrays at `G` and agrees with `V` off them. -/
theorem join_at (V' : (b : Ref sig .tc) → Buf (Elt F) ((c : Thread nD τ).loc b))
    (h0 : dat.share 0 = fullShare.left) (h1 : dat.share 1 = fullShare.right) (h2 : dat.share 2 = fullShare) (h3 : dat.share 3 = fullShare)
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  refine (sep_mono .rfl (Entails.of_eq ?_)).trans (join dat V' G h0 h1 h2 h3 hG)
  unfold Pipeline.unscopedRest
  exact bigSep_congr fun b hb => by rw [hrest b (Finset.mem_sdiff.mp hb).2]

end Cert.Kernel.Shared

end
-- ==== Proof.WholeKernel.lean ====
/-
  The whole program: the two regions one after the other, nothing between them.  The buffers' contents are followed from the
  launch memory: after the first region the support array holds what the region's write-backs leave and every other
  buffer what it held; after the second the output array holds what that region's write-backs leave.  Each region is entered
  with every unscoped buffer held whole at the contents so far and left the same way; the first region's arrays are distinct
  buffers, the second's are not (the adjacency is behind two windows), so its arrays are dealt out of the buffers and put back
  by the half-share lemmas.  The run's conclusion: the program terminates without a fault, the three arguments end as
  launched, and the result array ends at the named contents `result`.
-/
import proofs.«134342_g12137577578942_retrytranche1_717_10_alg».proof.Proof.XwKernel
import proofs.«134342_g12137577578942_retrytranche1_717_10_alg».proof.Proof.SpmmKernel
import proofs.«134342_g12137577578942_retrytranche1_717_10_alg».proof.Proof.SharedKernel
import proofs.«134342_g12137577578942_retrytranche1_717_10_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch, -/
abbrev W0 : Dev nD → Valuation τ sig (Elt F) := fun c b => m (c, b)
/-- read at the TensorCore's references. -/
abbrev U0 : (c : Dev nD) → (b : Ref sig .tc) → Buf (Elt F) ((c : Thread nD τ).loc b) := fun c b => W0 m c b

/-- After the first region: its arrays at what the pipeline leaves, every other buffer as launched. -/
def W1 (c : Dev nD) : Valuation τ sig (Elt F) :=
  Pipeline.withArrays spec0 c (W0 m c) fun w => (Xw.dat (U0 m) c).arrAt w cfg0.N
theorem W1_arr (c : Dev nD) (w : Fin cfg0.W) :
    W1 m c (Proc.devRef .tc (Pipeline.arrRef spec0 w)) = (Xw.dat (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (Xw.dat (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- What the second region's write-backs leave in the result array. -/
def result (c : Dev nD) : Buf (Elt F) ((c : Thread nD τ).loc main_v1) := (Spmm.dat (U1 m) c).arrAt 3 cfg1.N
/-- After the second region: the result array at `result`, every other buffer as the region found it. -/
def W2 (c : Dev nD) : Valuation τ sig (Elt F) := Function.update (W1 m c) main_v1 (result m c)
abbrev U2 : (c : Dev nD) → (b : Ref sig .tc) → Buf (Elt F) ((c : Thread nD τ).loc b) := fun c b => W2 m c b
theorem W2_result (c : Dev nD) : W2 m c (Proc.devRef .tc main_v1) = result m c := by
  unfold W2; exact Function.update_self _ _ _
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _
theorem hF1 (c : Dev nD) : ∀ w : Fin cfg1.W, (Spmm.dat (U1 m) c).arrAt w cfg1.N = U2 m c (Pipeline.arrRef spec1 w)
  | ⟨0, _⟩ => (((Spmm.dat (U1 m) c).arrAt_in 0 rfl _).trans (Spmm.A_eq (U1 m) c 0)).trans (W2_of_ne m c main_arg1 (by decide)).symm
  | ⟨1, _⟩ => (((Spmm.dat (U1 m) c).arrAt_in 1 rfl _).trans (Spmm.A_eq (U1 m) c 1)).trans (W2_of_ne m c main_arg1 (by decide)).symm
  | ⟨2, _⟩ => (((Spmm.dat (U1 m) c).arrAt_in 2 rfl _).trans (Spmm.A_eq (U1 m) c 2)).trans (W2_of_ne m c main_v0 (by decide)).symm
  | ⟨3, _⟩ => (W2_result m c).symm
theorem hrest1 (c : Dev nD) : ∀ b, b ∉ Finset.univ.image (Pipeline.arrRef spec1) → U2 m c b = U1 m c b :=
  fun b hb => W2_of_ne m c b fun e => hb (Finset.mem_image.mpr ⟨3, Finset.mem_univ _, e.symm⟩)

/-! ### The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((Xw.dat (U0 m) c).arrAt_in 0 rfl _).trans (Xw.A_eq (U0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((Xw.dat (U0 m) c).arrAt_in 1 rfl _).trans (Xw.A_eq (U0 m) c 1))
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Xw.dat (U0 m) c
  | ⟨1, _⟩ => fun c => Spmm.dat (U1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered with every unscoped buffer at the launch contents, left with them at `W1`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Xw.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W1`, left with them at `W2`; the adjacency dealt to its two
    windows in halves at entry and made whole again at exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Spmm.body_obligation (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Shared.split (Spmm.dat (U1 m) c) (U1 m c) ((pdats m 1 c).arrAt · 0) rfl rfl rfl rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Shared.join_at (Spmm.dat (U1 m) c) (U1 m c) ((pdats m 1 c).arrAt · cfg1.N) (U2 m c) rfl rfl rfl rfl (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]
        · iexact Ha
        iexact Hrest
      iexact HY
    unfold Pipeline.Dat.owesAt Pipeline.owesWithin
    icases HO with ⟨%W, -, HO⟩; iexists W; iexact HO

/-! ## The program as its two segments, and the launch -/

abbrev segs : List (Pipeline.Seg (pcfgs (F := F)) Gen.adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of the program on the
    TensorCores terminates, nothing faulting, and in every final state the result array holds `result m c` and the three
    argument arrays what they held at launch. -/
theorem run : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

end Cert.Kernel.Whole

end
-- ==== Proof.XwKernelIdeal.lean ====
/-
  The first region: support = features · weight, five row blocks of 2000 rows.  At a grid point the body reads the
  point's 2000×512 block of the features and the whole 512×512 weight, and overwrites the point's output block with
  their matrix product (rounded to the narrower format at the word level, unchanged on the extended reals).  Stated here,
  at any float instance: what the output block holds after the body as a function of the two input blocks, the body's
  triple, the proof data of the pipeline at entry contents `V`, and the body obligation at every point.
-/
import proofs.«134342_g12137577578942_retrytranche1_717_10_alg».proof.Proof.Gen.KernelIdeal.Launch
import proofs.«134342_g12137577578942_retrytranche1_717_10_alg».proof.Proof.Gen.KernelIdeal.Skeleton
import proofs.«134342_g12137577578942_retrytranche1_717_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Xw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features window's buffer holds the point's block of the features at every point. -/
theorem before_x_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's buffer holds the whole weight at every point, though fetched at the first only: its block index never moves. -/
theorem before_w_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's accesses: each is the whole of its buffer. -/
abbrev rX : Rect S2000x512 := Rect.unit (s := S2000x512) ![0, 0] S2000x512.size Gen.inb_S2000x512_S2000x512_0_0
abbrev rW : Rect S512x512 := Rect.unit (s := S512x512) ![0, 0] S512x512.size Gen.inb_S512x512_S512x512_0_0

/-- The output block after the body: its one store, of the product of the two blocks read. -/
def out (x0 : Vec F S2000x512 .f32) (x1 : Vec F S512x512 .f32) : Vec F S2000x512 .bf16 :=
  View.canon [⟨rX, k0_pay1 (View.ld x0 rX) (View.ld x1 rW)⟩]

/-- The store covers the block. -/
theorem cover (p0 : Vec F S2000x512 .bf16) (y : S2000x512.Idx) :
    ∃ pc ∈ ([⟨rX, p0⟩] : List (View.Piece (Elt F) S2000x512 .bf16)), y ∈ pc.1.set :=
  View.cover_of_tiled [⟨rX, p0⟩] S2000x512.size (by rfl) y

set_option maxHeartbeats 1000000 in
/-- The body on whole staging buffers: the inputs' contents read `x0`, `x1` and stay; the output's are anything before
    and `out x0 x1` after. -/
theorem sound_kernel (c : Dev nD) (E : Set ℕ) (i : grid0.Coords)
    (arg1 : Memref sig .tc .vmem S2000x512 .f32) (harg1 : arg1.IsWhole) (arg2 : Memref sig .tc .vmem S512x512 .f32) (harg2 : arg2.IsWhole)
    (arg3 : Memref sig .tc .vmem S2000x512 .bf16) (harg3 : arg3.IsWhole)
    (x0 : Vec F S2000x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__xw_body i arg1 harg1 arg2 harg2 arg3 harg3) K := by
  simp only [cc0__xw_body_eq_skeleton]; unfold cc0__xw_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of the first pipeline on core `c`: the arrays as the region finds them; after the body each input's
    buffer at its block and the output's at `out` of the input blocks; the invariant the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_x (c : Dev nD) (t : Fin cfg0.N) (d) : (dat V c).before 0 t d = iblk V c 0 t :=
  before_x_of V (dat V c) (A_eq V c 0) (after_0 V c) t d
theorem before_w (c : Dev nD) (t : Fin cfg0.N) (d) : (dat V c).before 1 t d = iblk V c 1 t :=
  before_w_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the body's triple applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Xw

end
-- ==== Proof.SpmmKernelIdeal.lean ====
/-
  The second region: out = max(adj · support, 0), twenty-five blocks of 400 output rows.  The adjacency reaches the body
  through TWO windows on the one array — the even and the odd 200-row panels — so the body at a grid point reads panel 2t
  and panel 2t+1 of the adjacency and the whole support, and writes the upper half of the point's 400×512 output block from
  the first panel and the lower half from the second: each half the matrix product of its panel with the support, clamped
  below at zero.  Stated here, at any float instance: what the output block holds after the body as a function of the
  three input blocks, the body's triple, the proof data of the pipeline at entry contents `V` (the two adjacency windows
  holding a half share of the array each), and the body obligation at every point.
-/
import proofs.«134342_g12137577578942_retrytranche1_717_10_alg».proof.Proof.Gen.KernelIdeal.Launch
import proofs.«134342_g12137577578942_retrytranche1_717_10_alg».proof.Proof.Gen.KernelIdeal.Skeleton
import proofs.«134342_g12137577578942_retrytranche1_717_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Spmm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first adjacency window's buffer holds the point's even panel at every point. -/
theorem before_even_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The second adjacency window's buffer holds the point's odd panel at every point. -/
theorem before_odd_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The support window's buffer holds the whole support at every point, though fetched at the first only: its block index never moves. -/
theorem before_sup_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body's accesses: a whole adjacency panel, the whole support, and the two halves of the output block. -/
abbrev rA : Rect S200x10000 := Rect.unit (s := S200x10000) ![0, 0] S200x10000.size Gen.inb_S200x10000_S200x10000_0_0
abbrev rS : Rect S10000x512 := Rect.unit (s := S10000x512) ![0, 0] S10000x512.size Gen.inb_S10000x512_S10000x512_0_0
abbrev rTop : Rect S400x512 := Rect.unit (s := S400x512) ![0, 0] S200x512.size Gen.inb_S400x512_S200x512_0_0
abbrev rBot : Rect S400x512 := Rect.unit (s := S400x512) ![200, 0] S200x512.size Gen.inb_S400x512_S200x512_200_0

/-- The output block after the body: its two stores, the later first — the lower half from the odd panel, the upper half
    from the even one. -/
def out (a0 a1 : Vec F S200x10000 .f32) (s : Vec F S10000x512 .bf16) : Vec F S400x512 .f32 :=
  View.canon [⟨rBot, k1_pay3 (View.ld s rS) (View.ld a1 rA)⟩, ⟨rTop, k1_pay2 (View.ld s rS) (View.ld a0 rA)⟩]

/-- The two halves tile the block. -/
theorem cover (p1 p0 : Vec F S200x512 .f32) (y : S400x512.Idx) :
    ∃ pc ∈ ([⟨rBot, p1⟩, ⟨rTop, p0⟩] : List (View.Piece (Elt F) S400x512 .f32)), y ∈ pc.1.set :=
  View.cover_of_tiled [⟨rBot, p1⟩, ⟨rTop, p0⟩] S200x512.size (by rfl) y

set_option maxHeartbeats 1000000 in
/-- The body on whole staging buffers: the inputs' contents read `a0`, `a1`, `s` and stay; the output's are anything
    before and `out a0 a1 s` after. -/
theorem sound_kernel (c : Dev nD) (E : Set ℕ) (i : grid1.Coords)
    (arg1 : Memref sig .tc .vmem S200x10000 .f32) (harg1 : arg1.IsWhole) (arg2 : Memref sig .tc .vmem S200x10000 .f32) (harg2 : arg2.IsWhole)
    (arg3 : Memref sig .tc .vmem S10000x512 .bf16) (harg3 : arg3.IsWhole) (arg4 : Memref sig .tc .vmem S400x512 .f32) (harg4 : arg4.IsWhole)
    (a0 a1 : Vec F S200x10000 .f32) (s : Vec F S10000x512 .bf16) (K : PUnit → sProp 𝕄) :
    iprop(owns (c : Thread nD τ) arg1 fullShare a0 ∗ owns (c : Thread nD τ) arg2 fullShare a1 ∗ owns (c : Thread nD τ) arg3 fullShare s
        ∗ (∃ d, owns (c : Thread nD τ) arg4 fullShare d)
        ∗ (iprop(owns (c : Thread nD τ) arg1 fullShare a0 ∗ owns (c : Thread nD τ) arg2 fullShare a1 ∗ owns (c : Thread nD τ) arg3 fullShare s
            ∗ owns (c : Thread nD τ) arg4 fullShare (out a0 a1 s)) -∗ K ⟨⟩))
      ⊢ wp frame (wpE (defs₀ (F := F)) Variants.none c none) E (cc1__lambda_ i arg1 harg1 arg2 harg2 arg3 harg3 arg4 harg4) K := by
  simp only [cc1__lambda__eq_skeleton]; unfold cc1__lambda__skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-- The proof data of the second pipeline on core `c`: the arrays as the region finds them; after the body each input's
    buffer at its block and the output's at `out` of the input blocks; the invariant the scoped rest and the generator
    register, untouched; nothing owed; the adjacency's full share dealt in halves to the two windows on it. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out (iblk V c 0 t) (iblk V c 1 t) (iblk V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out (iblk V c 0 t) (iblk V c 1 t) (iblk V c 2 t) := by dsimp only [dat]

theorem before_even (c : Dev nD) (t : Fin cfg1.N) (d) : (dat V c).before 0 t d = iblk V c 0 t :=
  before_even_of V (dat V c) (A_eq V c 0) (after_0 V c) t d
theorem before_odd (c : Dev nD) (t : Fin cfg1.N) (d) : (dat V c).before 1 t d = iblk V c 1 t :=
  before_odd_of V (dat V c) (A_eq V c 1) (after_1 V c) t d
theorem before_sup (c : Dev nD) (t : Fin cfg1.N) (d) : (dat V c).before 2 t d = iblk V c 2 t :=
  before_sup_of V (dat V c) (A_eq V c 2) (after_2 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the body's triple applies; the invariant and the core's
    dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_even, before_odd, before_sup]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dat (F := F) V c) (defs₀ (F := F)) Variants.none () Set.univ := fun t => by
  rw [bigSep_W1, bigSep_W1]
  exact sound_body V c t

end Cert.KernelIdeal.Spmm

end
-- ==== Proof.SharedKernelIdeal.lean ====
/-
  The second region reads the adjacency through two windows.  A window holds its array at a share; the two windows on the
  adjacency hold a half each.  Proved here: a core's unscoped buffers, each whole at the full share at contents `V`, are the
  second pipeline's arrays at `V` — the adjacency's full share split in its left and right halves, the support and the
  output array whole — beside the two buffers no window of the region touches; and back.
-/
import proofs.«134342_g12137577578942_retrytranche1_717_10_alg».proof.Proof.Gen.KernelIdeal.Launch
import Idealize.ShloMosaic.Lib.Pipeline.Frame
import Idealize.ShloMosaic.Lib.Pipeline.RegionsLoop

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} (dat : Dat τ (Elt F) Unit ℕ (UR sig nD τ) ℕ cfg1 c)
  (V : (b : Ref sig .tc) → Buf (Elt F) ((c : Thread nD τ).loc b))
  (G : (w : Fin cfg1.W) → Buf (Elt F) ((cfg1.win w).arr.view.loc (c : Thread nD τ)))

theorem split (h0 : dat.share 0 = fullShare.left) (h1 : dat.share 1 = fullShare.right) (h2 : dat.share 2 = fullShare) (h3 : dat.share 3 = fullShare)
    (hG : ∀ w, G w = V (Pipeline.arrRef spec1 w)) :
    (unscopedBufs c V : sProp 𝕄) ⊢ iprop(dat.arrays G ∗ Pipeline.unscopedRest spec1 c V) := by
  rw [Pipeline.unscopedBufs_split₀ cfgs 1 winFacts₀1.arr_unscoped c V]
  refine sep_mono ?_ .rfl
  unfold Pipeline.arrBufs Dat.arrays
  rw [bigSep_eq_bigSepL_of_eq [main_arg1, main_v0, main_v1] (by decide) (by decide), bigSep_W1]
  rw [h0, h1, h2, h3, hG 0, hG 1, hG 2, hG 3, (arr_whole1 0).set_eq_univ, (arr_whole1 2).set_eq_univ, (arr_whole1 3).set_eq_univ]
  show iprop(((c : Thread nD τ).loc main_arg1 ↦{fullShare} V main_arg1) ∗ ((c : Thread nD τ).loc main_v0 ↦{fullShare} V main_v0) ∗ ((c : Thread nD τ).loc main_v1 ↦{fullShare} V main_v1))
    ⊢ (iprop(((c : Thread nD τ).loc main_arg1 ↦{fullShare.left} V main_arg1) ∗ ((c : Thread nD τ).loc main_arg1 ↦{fullShare.right} V main_arg1)
      ∗ ((c : Thread nD τ).loc main_v0 ↦{fullShare} V main_v0) ∗ ((c : Thread nD τ).loc main_v1 ↦{fullShare} V main_v1)) : sProp 𝕄)
  iintro ⟨Ha, Hs, Ho⟩
  have hs : (((c : Thread nD τ).loc main_arg1 ↦{fullShare} V main_arg1) : sProp 𝕄)
      ⊢ iprop(((c : Thread nD τ).loc main_arg1 ↦{fullShare.left} V main_arg1) ∗ ((c : Thread nD τ).loc main_arg1 ↦{fullShare.right} V main_arg1)) :=
    (pointsTo_share (PosShare.mem_left_op_right fullShare)).1
  ihave H := hs $$ Ha
  icases H with ⟨Hl, Hr⟩
  isplitl [Hl]; · iexact Hl
  isplitl [Hr]; · iexact Hr
  isplitl [Hs]; · iexact Hs
  iexact Ho

theorem join (h0 : dat.share 0 = fullShare.left) (h1 : dat.share 1 = fullShare.right) (h2 : dat.share 2 = fullShare) (h3 : dat.share 3 = fullShare)
    (hG : ∀ w, G w = V (Pipeline.arrRef spec1 w)) :
    iprop(dat.arrays G ∗ Pipeline.unscopedRest spec1 c V) ⊢ (unscopedBufs c V : sProp 𝕄) := by
  rw [Pipeline.unscopedBufs_split₀ cfgs 1 winFacts₀1.arr_unscoped c V]
  refine sep_mono ?_ .rfl
  unfold Pipeline.arrBufs Dat.arrays
  rw [bigSep_eq_bigSepL_of_eq [main_arg1, main_v0, main_v1] (by decide) (by decide), bigSep_W1]
  rw [h0, h1, h2, h3, hG 0, hG 1, hG 2, hG 3, (arr_whole1 0).set_eq_univ, (arr_whole1 2).set_eq_univ, (arr_whole1 3).set_eq_univ]
  show (iprop(((c : Thread nD τ).loc main_arg1 ↦{fullShare.left} V main_arg1) ∗ ((c : Thread nD τ).loc main_arg1 ↦{fullShare.right} V main_arg1)
      ∗ ((c : Thread nD τ).loc main_v0 ↦{fullShare} V main_v0) ∗ ((c : Thread nD τ).loc main_v1 ↦{fullShare} V main_v1)) : sProp 𝕄)
    ⊢ iprop(((c : Thread nD τ).loc main_arg1 ↦{fullShare} V main_arg1) ∗ ((c : Thread nD τ).loc main_v0 ↦{fullShare} V main_v0) ∗ ((c : Thread nD τ).loc main_v1 ↦{fullShare} V main_v1))
  iintro ⟨Hl, Hr, Hs, Ho⟩
  isplitl [Hl Hr]
  · have hj : (iprop(((c : Thread nD τ).loc main_arg1 ↦{fullShare.left} V main_arg1) ∗ ((c : Thread nD τ).loc main_arg1 ↦{fullShare.right} V main_arg1)) : sProp 𝕄)
        ⊢ ((c : Thread nD τ).loc main_arg1 ↦{fullShare} V main_arg1) :=
      (pointsTo_share (PosShare.mem_left_op_right fullShare)).2
    iapply hj
    isplitl [Hl]; · iexact Hl
    iexact Hr
  isplitl [Hs]; · iexact Hs
  iexact Ho

/-- The same back, at a valuation `V'` that has the arrays at `G` and agrees with `V` off them. -/
theorem join_at (V' : (b : Ref sig .tc) → Buf (Elt F) ((c : Thread nD τ).loc b))
    (h0 : dat.share 0 = fullShare.left) (h1 : dat.share 1 = fullShare.right) (h2 : dat.share 2 = fullShare) (h3 : dat.share 3 = fullShare)
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  refine (sep_mono .rfl (Entails.of_eq ?_)).trans (join dat V' G h0 h1 h2 h3 hG)
  unfold Pipeline.unscopedRest
  exact bigSep_congr fun b hb => by rw [hrest b (Finset.mem_sdiff.mp hb).2]

end Cert.KernelIdeal.Shared

end
-- ==== Proof.WholeKernelIdeal.lean ====
/-
  The whole program: the two regions one after the other, nothing between them.  The buffers' contents are followed from the
  launch memory: after the first region the support array holds what the region's write-backs leave and every other
  buffer what it held; after the second the output array holds what that region's write-backs leave.  Each region is entered
  with every unscoped buffer held whole at the contents so far and left the same way; the first region's arrays are distinct
  buffers, the second's are not (the adjacency is behind two windows), so its arrays are dealt out of the buffers and put back
  by the half-share lemmas.  The run's conclusion: the program terminates without a fault, the three arguments end as
  launched, and the result array ends at the named contents `result`.
-/
import proofs.«134342_g12137577578942_retrytranche1_717_10_alg».proof.Proof.XwKernelIdeal
import proofs.«134342_g12137577578942_retrytranche1_717_10_alg».proof.Proof.SpmmKernelIdeal
import proofs.«134342_g12137577578942_retrytranche1_717_10_alg».proof.Proof.SharedKernelIdeal
import proofs.«134342_g12137577578942_retrytranche1_717_10_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch, -/
abbrev W0 : Dev nD → Valuation τ sig (Elt F) := fun c b => m (c, b)
/-- read at the TensorCore's references. -/
abbrev U0 : (c : Dev nD) → (b : Ref sig .tc) → Buf (Elt F) ((c : Thread nD τ).loc b) := fun c b => W0 m c b

/-- After the first region: its arrays at what the pipeline leaves, every other buffer as launched. -/
def W1 (c : Dev nD) : Valuation τ sig (Elt F) :=
  Pipeline.withArrays spec0 c (W0 m c) fun w => (Xw.dat (U0 m) c).arrAt w cfg0.N
theorem W1_arr (c : Dev nD) (w : Fin cfg0.W) :
    W1 m c (Proc.devRef .tc (Pipeline.arrRef spec0 w)) = (Xw.dat (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (Xw.dat (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- What the second region's write-backs leave in the result array. -/
def result (c : Dev nD) : Buf (Elt F) ((c : Thread nD τ).loc main_v1) := (Spmm.dat (U1 m) c).arrAt 3 cfg1.N
/-- After the second region: the result array at `result`, every other buffer as the region found it. -/
def W2 (c : Dev nD) : Valuation τ sig (Elt F) := Function.update (W1 m c) main_v1 (result m c)
abbrev U2 : (c : Dev nD) → (b : Ref sig .tc) → Buf (Elt F) ((c : Thread nD τ).loc b) := fun c b => W2 m c b
theorem W2_result (c : Dev nD) : W2 m c (Proc.devRef .tc main_v1) = result m c := by
  unfold W2; exact Function.update_self _ _ _
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) _ _
theorem hF1 (c : Dev nD) : ∀ w : Fin cfg1.W, (Spmm.dat (U1 m) c).arrAt w cfg1.N = U2 m c (Pipeline.arrRef spec1 w)
  | ⟨0, _⟩ => (((Spmm.dat (U1 m) c).arrAt_in 0 rfl _).trans (Spmm.A_eq (U1 m) c 0)).trans (W2_of_ne m c main_arg1 (by decide)).symm
  | ⟨1, _⟩ => (((Spmm.dat (U1 m) c).arrAt_in 1 rfl _).trans (Spmm.A_eq (U1 m) c 1)).trans (W2_of_ne m c main_arg1 (by decide)).symm
  | ⟨2, _⟩ => (((Spmm.dat (U1 m) c).arrAt_in 2 rfl _).trans (Spmm.A_eq (U1 m) c 2)).trans (W2_of_ne m c main_v0 (by decide)).symm
  | ⟨3, _⟩ => (W2_result m c).symm
theorem hrest1 (c : Dev nD) : ∀ b, b ∉ Finset.univ.image (Pipeline.arrRef spec1) → U2 m c b = U1 m c b :=
  fun b hb => W2_of_ne m c b fun e => hb (Finset.mem_image.mpr ⟨3, Finset.mem_univ _, e.symm⟩)

/-! ### The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((Xw.dat (U0 m) c).arrAt_in 0 rfl _).trans (Xw.A_eq (U0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((Xw.dat (U0 m) c).arrAt_in 1 rfl _).trans (Xw.A_eq (U0 m) c 1))
    _ = m ((c : Thread nD τ).loc main_arg2) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Xw.dat (U0 m) c
  | ⟨1, _⟩ => fun c => Spmm.dat (U1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its dues, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered with every unscoped buffer at the launch contents, left with them at `W1`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Xw.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W1`, left with them at `W2`; the adjacency dealt to its two
    windows in halves at entry and made whole again at exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (Spmm.body_obligation (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Shared.split (Spmm.dat (U1 m) c) (U1 m c) ((pdats m 1 c).arrAt · 0) rfl rfl rfl rfl (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Shared.join_at (Spmm.dat (U1 m) c) (U1 m c) ((pdats m 1 c).arrAt · cfg1.N) (U2 m c) rfl rfl rfl rfl (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]
        · iexact Ha
        iexact Hrest
      iexact HY
    unfold Pipeline.Dat.owesAt Pipeline.owesWithin
    icases HO with ⟨%W, -, HO⟩; iexists W; iexact HO

/-! ## The program as its two segments, and the launch -/

abbrev segs : List (Pipeline.Seg (pcfgs (F := F)) Gen.adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of the program on the
    TensorCores terminates, nothing faulting, and in every final state the result array holds `result m c` and the three
    argument arrays what they held at launch. -/
theorem run : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_result m c),
       (h c _ (mem_uc main_arg0 (by decide))).trans (W2_main_arg0 m c),
       (h c _ (mem_uc main_arg1 (by decide))).trans (W2_main_arg1 m c),
       (h c _ (mem_uc main_arg2 (by decide))).trans (W2_main_arg2 m c)⟩)

end Cert.KernelIdeal.Whole

end
-- ==== Proof.PayKernelIdeal.lean ====
/-
  The bodies' arithmetic on the extended reals, read at an entry.  A change of float format is the identity there and the
  matrix unit's product into a zero accumulator is the plain sum of products, so the first body's stored value at (p, l) is
  Σ_j x[p, j] · w[j, l], and each half the second body stores is, at (p, l), the larger of Σ_k a[p, k] · s[k, l] and zero.
-/
import proofs.«134342_g12137577578942_retrytranche1_717_10_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic

/-! ### The 2000x512 by 512x512 product -/

theorem xw_lhs0 (i : S2000x512.Idx) (q : dot_S2000x512_S512x512_S2000x512_1_0_0_1_n_n.contr.Idx) : (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem xw_lhs1 (i : S2000x512.Idx) (q : dot_S2000x512_S512x512_S2000x512_1_0_0_1_n_n.contr.Idx) : (dot_S2000x512_S512x512_S2000x512_1_0_0_1_n_n.lhsIdx i q 1).val = (q ⟨0, by decide⟩).val :=
  dot_S2000x512_S512x512_S2000x512_1_0_0_1_n_n.lhsIdx_val_of_single rfl i q
theorem xw_rhs0 (i : S2000x512.Idx) (q : dot_S2000x512_S512x512_S2000x512_1_0_0_1_n_n.contr.Idx) : (dot_S2000x512_S512x512_S2000x512_1_0_0_1_n_n.rhsIdx i q 0).val = (q ⟨0, by decide⟩).val :=
  dot_S2000x512_S512x512_S2000x512_1_0_0_1_n_n.rhsIdx_val_of_single rfl i q
theorem xw_rhs1 (i : S2000x512.Idx) (q : dot_S2000x512_S512x512_S2000x512_1_0_0_1_n_n.contr.Idx) : (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl
/-- Row `i 0` of the left factor at column `k`, -/
abbrev xwL (i : S2000x512.Idx) (k : Fin 512) : S2000x512.Idx := fun a => match a with
  | ⟨0, _⟩ => ⟨(i 0).val, (i 0).isLt⟩
  | ⟨1, _⟩ => ⟨k.val, k.isLt⟩
/-- and row `k` of the right factor at column `i 1`. -/
abbrev xwR (i : S2000x512.Idx) (k : Fin 512) : S512x512.Idx := fun a => match a with
  | ⟨0, _⟩ => ⟨k.val, k.isLt⟩
  | ⟨1, _⟩ => ⟨(i 1).val, (i 1).isLt⟩
/-- On the extended reals the matrix unit's product into a zero accumulator, read at an entry, is the sum over the
    contracted axis of the factors' products. -/
theorem xw_apply {φ₁ φ₂ : FTy} (x : FVec Ideal S2000x512 φ₁) (y : FVec Ideal S512x512 φ₂) (i : S2000x512.Idx) :
    FloatOps.matmul dot_S2000x512_S512x512_S2000x512_1_0_0_1_n_n none x y (constant S2000x512 .f32 0x00000000#32) i = ∑ k : Fin 512, x (xwL i k) * y (xwR i k) := by
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx i ((ValueIdx.contrEquiv1 dot_S2000x512_S512x512_S2000x512_1_0_0_1_n_n 512 rfl rfl).symm k) = xwL i k := funext fun a => Fin.ext (by
    match a with
    | ⟨0, _⟩ => exact xw_lhs0 _ _
    | ⟨1, _⟩ => exact (xw_lhs1 _ _).trans hk)
  have er : dot_S2000x512_S512x512_S2000x512_1_0_0_1_n_n.rhsIdx i ((ValueIdx.contrEquiv1 dot_S2000x512_S512x512_S2000x512_1_0_0_1_n_n 512 rfl rfl).symm k) = xwR i k := funext fun a => Fin.ext (by
    match a with
    | ⟨0, _⟩ => exact (xw_rhs0 _ _).trans hk
    | ⟨1, _⟩ => exact xw_rhs1 _ _)
  rw [el, er]

/-! ### The 200x10000 by 10000x512 product -/

theorem as_lhs0 (i : S200x512.Idx) (q : dot_S200x10000_S10000x512_S200x512_1_0_0_1_n_n.contr.Idx) : (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
theorem as_lhs1 (i : S200x512.Idx) (q : dot_S200x10000_S10000x512_S200x512_1_0_0_1_n_n.contr.Idx) : (dot_S200x10000_S10000x512_S200x512_1_0_0_1_n_n.lhsIdx i q 1).val = (q ⟨0, by decide⟩).val :=
  dot_S200x10000_S10000x512_S200x512_1_0_0_1_n_n.lhsIdx_val_of_single rfl i q
theorem as_rhs0 (i : S200x512.Idx) (q : dot_S200x10000_S10000x512_S200x512_1_0_0_1_n_n.contr.Idx) : (dot_S200x10000_S10000x512_S200x512_1_0_0_1_n_n.rhsIdx i q 0).val = (q ⟨0, by decide⟩).val :=
  dot_S200x10000_S10000x512_S200x512_1_0_0_1_n_n.rhsIdx_val_of_single rfl i q
theorem as_rhs1 (i : S200x512.Idx) (q : dot_S200x10000_S10000x512_S200x512_1_0_0_1_n_n.contr.Idx) : (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl
/-- Row `i 0` of the left factor at column `k`, -/
abbrev asL (i : S200x512.Idx) (k : Fin 10000) : S200x10000.Idx := fun a => match a with
  | ⟨0, _⟩ => ⟨(i 0).val, (i 0).isLt⟩
  | ⟨1, _⟩ => ⟨k.val, k.isLt⟩
/-- and row `k` of the right factor at column `i 1`. -/
abbrev asR (i : S200x512.Idx) (k : Fin 10000) : S10000x512.Idx := fun a => match a with
  | ⟨0, _⟩ => ⟨k.val, k.isLt⟩
  | ⟨1, _⟩ => ⟨(i 1).val, (i 1).isLt⟩
/-- On the extended reals the matrix unit's product into a zero accumulator, read at an entry, is the sum over the
    contracted axis of the factors' products. -/
theorem as_apply {φ₁ φ₂ : FTy} (x : FVec Ideal S200x10000 φ₁) (y : FVec Ideal S10000x512 φ₂) (i : S200x512.Idx) :
    FloatOps.matmul dot_S200x10000_S10000x512_S200x512_1_0_0_1_n_n none x y (constant S200x512 .f32 0x00000000#32) i = ∑ k : Fin 10000, x (asL i k) * y (asR i k) := by
  rw [Ideal.matmul_constant_zero_apply, ← Equiv.sum_comp (ValueIdx.contrEquiv1 dot_S200x10000_S10000x512_S200x512_1_0_0_1_n_n 10000 rfl rfl).symm]
  refine Finset.sum_congr rfl fun k _ => ?_
  have hk := ValueIdx.contrEquiv1_symm_val dot_S200x10000_S10000x512_S200x512_1_0_0_1_n_n 10000 rfl rfl k
  have el : dot_S200x10000_S10000x512_S200x512_1_0_0_1_n_n.lhsIdx i ((ValueIdx.contrEquiv1 dot_S200x10000_S10000x512_S200x512_1_0_0_1_n_n 10000 rfl rfl).symm k) = asL i k := funext fun a => Fin.ext (by
    match a with
    | ⟨0, _⟩ => exact as_lhs0 _ _
    | ⟨1, _⟩ => exact (as_lhs1 _ _).trans hk)
  have er : dot_S200x10000_S10000x512_S200x512_1_0_0_1_n_n.rhsIdx i ((ValueIdx.contrEquiv1 dot_S200x10000_S10000x512_S200x512_1_0_0_1_n_n 10000 rfl rfl).symm k) = asR i k := funext fun a => Fin.ext (by
    match a with
    | ⟨0, _⟩ => exact (as_rhs0 _ _).trans hk
    | ⟨1, _⟩ => exact as_rhs1 _ _)
  rw [el, er]

/-! ### The stored values -/

/-- The first body's stored block at an entry. -/
theorem pay1_apply (x0 : Vec Ideal S2000x512 .f32) (x1 : Vec Ideal S512x512 .f32) (i : S2000x512.Idx) :
    k0_pay1 (F := Ideal) x0 x1 i = ∑ k : Fin 512, x0 (xwL i k) * x1 (xwR i k) := by
  unfold k0_pay1
  exact xw_apply (φ₁ := .f32) (φ₂ := .f32) x0 x1 i

/-- The second body's upper half at an entry: the clamped product of the even panel with the support. -/
theorem pay2_apply (s : Vec Ideal S10000x512 .bf16) (a : Vec Ideal S200x10000 .f32) (i : S200x512.Idx) :
    k1_pay2 (F := Ideal) s a i = max (∑ k : Fin 10000, a (asL i k) * s (asR i k)) (Ideal.ofBits .f32 0x00000000#32) := by
  unfold k1_pay2 k1_pay1
  refine congrArg (max · (Ideal.ofBits .f32 0x00000000#32)) ?_
  rw [shapeCast_self]
  exact as_apply (φ₁ := .bf16) (φ₂ := .bf16) a s i

/-- The second body's lower half at an entry: the same of the odd panel. -/
theorem pay3_apply (s : Vec Ideal S10000x512 .bf16) (a : Vec Ideal S200x10000 .f32) (i : S200x512.Idx) :
    k1_pay3 (F := Ideal) s a i = max (∑ k : Fin 10000, a (asL i k) * s (asR i k)) (Ideal.ofBits .f32 0x00000000#32) := by
  unfold k1_pay3 k1_pay1
  refine congrArg (max · (Ideal.ofBits .f32 0x00000000#32)) ?_
  rw [shapeCast_self]
  exact as_apply (φ₁ := .bf16) (φ₂ := .bf16) a s i

end Cert.KernelIdeal.Pay

end
-- ==== Proof.Layer.lean ====
/-
  The layer, as one function of the three arrays on the extended reals:
      support[r, l] = Σ_j features[r, j] · weight[j, l]            (10000 × 512, j over 512)
      layer[r, l]   = max(Σ_k adj[r, k] · support[k, l], 0)        (10000 × 512, k over 10000)
  Both programs compute exactly this arrangement of sums — the kernel block by block, the reference whole — so no law of
  the extended reals is needed to join them, only the bookkeeping of indices.
-/
import Idealize.ShloMosaic.PureOps.Ideal
import Idealize.ShloMosaic.Lib.ValueIdx

noncomputable section

namespace Cert.Gcn

open Idealize.ShloMosaic ValueIdx

abbrev Feat : Shape := ⟨2, ![10000, 512]⟩
abbrev Adj : Shape := ⟨2, ![10000, 10000]⟩
abbrev Wgt : Shape := ⟨2, ![512, 512]⟩

/-- The zero the clamp compares with, as the word both programs spell. -/
abbrev zero : EReal := Ideal.ofBits .f32 0x00000000#32

/-- features · weight at an entry. -/
def support (f : Feat.Idx → EReal) (w : Wgt.Idx → EReal) : Feat.Idx → EReal :=
  fun i => ∑ j : Fin 512, f (ix2 ⟨(i 0).val, (i 0).isLt⟩ j) * w (ix2 j ⟨(i 1).val, (i 1).isLt⟩)

/-- max(adj · s, 0) at an entry. -/
def clampedProduct (a : Adj.Idx → EReal) (s : Feat.Idx → EReal) : Feat.Idx → EReal :=
  fun i => max (∑ k : Fin 10000, a (ix2 ⟨(i 0).val, (i 0).isLt⟩ k) * s (ix2 k ⟨(i 1).val, (i 1).isLt⟩)) zero

/-- The layer. -/
def layer (f : Feat.Idx → EReal) (a : Adj.Idx → EReal) (w : Wgt.Idx → EReal) : Feat.Idx → EReal :=
  clampedProduct a (support f w)

end Cert.Gcn

end
-- ==== Proof.ValueKernelIdeal.lean ====
/-
  What the two regions leave in their output arrays, on the extended reals, as functions of the arrays they find.
  First region: block t of the support array is rows 2000·t … 2000·t+1999, and what point t writes back there is, entry by
  entry, Σ_j features[row, j] · weight[j, col] — the features block read at the same rows, the weight whole.  The five blocks
  tile the array, so it ends at `support features weight`.
  Second region: block t of the result is rows 400·t … 400·t+399; its upper 200 rows come from adjacency panel 2t (rows
  200·(2t) + p = 400·t + p) and its lower 200 from panel 2t+1 (rows 200·(2t+1) + p = 400·t + 200 + p), each entry the larger
  of Σ_k adj[row, k] · support[k, col] and zero.  The twenty-five blocks tile the array, so it ends at the clamped product.
-/
import proofs.«134342_g12137577578942_retrytranche1_717_10_alg».proof.Proof.XwKernelIdeal
import proofs.«134342_g12137577578942_retrytranche1_717_10_alg».proof.Proof.SpmmKernelIdeal
import proofs.«134342_g12137577578942_retrytranche1_717_10_alg».proof.Proof.PayKernelIdeal
import proofs.«134342_g12137577578942_retrytranche1_717_10_alg».proof.Proof.Layer
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe ValueIdx
open Idealize.SL.Sem
open Idealize.ShloMosaic.Pipeline (Dat)

variable (V : (c : Dev nD) → (b : Ref sig .tc) → Buf (Elt Ideal) ((c : Thread nD τ).loc b))

theorem hzero : (![0, 0] : Fin 2 → Nat) = fun _ => 0 := funext fun a => by fin_cases a <;> rfl

/-! ## The first region -/

/-- The output block after the body, at an entry. -/
theorem xw_out_apply (x0 : Vec Ideal S2000x512 .f32) (x1 : Vec Ideal S512x512 .f32) (y : S2000x512.Idx) :
    Xw.out (F := Ideal) x0 x1 y = ∑ k : Fin 512, x0 (Pay.xwL y k) * x1 (Pay.xwR y k) := by
  unfold Xw.out
  rw [View.canon_unit_zero hzero]
  simp only [View.ld_unit_zero (S := S2000x512) hzero, View.ld_unit_zero (S := S512x512) hzero]
  exact Pay.pay1_apply x0 x1 y

/-- The printed index maps over the five points: the features block moves with the output block along the rows, the weight's
    never moves, and no block index leaves its range. -/
theorem idx0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 4 :=
  (by decide +kernel : ∀ t : Fin grid0.N, _)
/-- Every row block is some point's. -/
theorem onto0 : ∀ q : Fin 5, ∃ t : Fin cfg0.N, win0_2.index t = ![q.val, 0] :=
  (by decide +kernel : ∀ q : Fin 5, ∃ t : Fin grid0.N, win0_2.index t = ![q.val, 0])

/-- What point `t` writes back is block `t` of the support of the arrays the region finds. -/
theorem support_flushed (c : Dev nD) (t : Fin cfg0.N) :
    (Xw.dat V c).flushed 2 t = ((cfg0.win 2).blk t).view.read (Elt Ideal) (Cert.Gcn.support (V c main_arg0) (V c main_arg2)) := by
  show (cfg0.win 2).cut (grid0.coords t) ((Xw.dat V c).after 2 t) = _
  rw [Xw.after_2]
  obtain ⟨e0, e1, e2, e3, e4, -⟩ := idx0 t
  funext y
  show Xw.out (Xw.iblk V c 0 t) (Xw.iblk V c 1 t) y = Cert.Gcn.support (V c main_arg0) (V c main_arg2) (((cfg0.win 2).blk t).view.emb y)
  refine (xw_out_apply _ _ y).trans ?_
  unfold Cert.Gcn.support
  refine Finset.sum_congr rfl fun k _ => ?_
  show @HMul.hMul EReal EReal EReal instHMul (V c main_arg0 (((cfg0.win 0).blk t).view.emb (Pay.xwL y k))) (V c main_arg2 (((cfg0.win 1).blk t).view.emb (Pay.xwR y k))) = _
  refine congrArg₂ (fun a b : EReal => a * b) (congrArg (V c main_arg0) ?_) (congrArg (V c main_arg2) ?_)
  · funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 512 + 1 * k.val = k.val; omega
  · funext a; apply Fin.ext
    match a with
    | ⟨0, _⟩ => show win0_1.index t (0 : Fin 2) * 512 + 1 * k.val = k.val; omega
    | ⟨1, _⟩ => show win0_1.index t (1 : Fin 2) * 512 + 1 * (y 1).val = win0_2.index t (1 : Fin 2) * 512 + 1 * (y 1).val; omega

/-- An entry of the support array is in point `t`'s block iff its row is in the block's 2000 rows. -/
theorem mem_blk0 (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v0).slice (win0_2.rect t)).set ↔ _
  rw [View.set_slice_whole, Rect.mem_set_unit]
  exact Iff.rfl

/-- The five blocks tile the support array: row r is in block r / 2000. -/
theorem cover0 (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ := onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The support array after the first region. -/
theorem support_final (c : Dev nD) : (Xw.dat V c).arrAt 2 cfg0.N = Cert.Gcn.support (V c main_arg0) (V c main_arg2) :=
  (Xw.dat V c).arrAt_eq_of_cover 2 _ (fun t _ => support_flushed V c t) cover0

/-! ## The second region -/

/-- The output block after the body is any function `Gb` of the block's index that the two halves' stored values agree with:
    the upper half's at the upper rectangle's entries, the lower half's at the lower's. -/
theorem spmm_out_eq (a0 a1 : Vec Ideal S200x10000 .f32) (s : Vec Ideal S10000x512 .bf16) (Gb : S400x512.Idx → EReal)
    (htop : ∀ x : S200x512.Idx, max (∑ k : Fin 10000, a0 (Pay.asL x k) * s (Pay.asR x k)) Cert.Gcn.zero = Gb (Spmm.rTop.emb x))
    (hbot : ∀ x : S200x512.Idx, max (∑ k : Fin 10000, a1 (Pay.asL x k) * s (Pay.asR x k)) Cert.Gcn.zero = Gb (Spmm.rBot.emb x)) :
    Spmm.out (F := Ideal) a0 a1 s = Gb := by
  funext y
  unfold Spmm.out
  refine View.canon_apply_of_pieces (Val := Elt Ideal) (e := .f32) Gb _ ?_ y (Spmm.cover _ _ y)
  intro p hp x
  simp only [List.mem_cons, List.mem_singleton, List.not_mem_nil, or_false] at hp
  rcases hp with rfl | rfl
  · simp only [View.ld_unit_zero (S := S10000x512) hzero, View.ld_unit_zero (S := S200x10000) hzero]
    exact (Pay.pay3_apply _ _ x).trans (hbot x)
  · simp only [View.ld_unit_zero (S := S10000x512) hzero, View.ld_unit_zero (S := S200x10000) hzero]
    exact (Pay.pay2_apply _ _ x).trans (htop x)

/-- The printed index maps over the twenty-five points: the even panel's block index is twice the output block's, the odd
    panel's one more, the support's never moves, and no block index leaves its range. -/
theorem idx1 : ∀ t : Fin cfg1.N, win1_0.index t (0 : Fin 2) = 2 * win1_3.index t (0 : Fin 2) ∧ win1_0.index t (1 : Fin 2) = 0
    ∧ win1_1.index t (0 : Fin 2) = 2 * win1_3.index t (0 : Fin 2) + 1 ∧ win1_1.index t (1 : Fin 2) = 0
    ∧ win1_2.index t (0 : Fin 2) = 0 ∧ win1_2.index t (1 : Fin 2) = 0 ∧ win1_3.index t (1 : Fin 2) = 0 ∧ win1_3.index t (0 : Fin 2) ≤ 24 :=
  (by decide +kernel : ∀ t : Fin grid1.N, _)
/-- Every row block is some point's. -/
theorem onto1 : ∀ q : Fin 25, ∃ t : Fin cfg1.N, win1_3.index t = ![q.val, 0] :=
  (by decide +kernel : ∀ q : Fin 25, ∃ t : Fin grid1.N, win1_3.index t = ![q.val, 0])

/-- What point `t` writes back is block `t` of the clamped product of the adjacency and the support as the region finds them. -/
theorem layer_flushed (c : Dev nD) (t : Fin cfg1.N) :
    (Spmm.dat V c).flushed 3 t = ((cfg1.win 3).blk t).view.read (Elt Ideal) (Cert.Gcn.clampedProduct (V c main_arg1) (V c main_v0)) := by
  show (cfg1.win 3).cut (grid1.coords t) ((Spmm.dat V c).after 3 t) = _
  rw [Spmm.after_3]
  obtain ⟨e0, e1, e2, e3, e4, e5, e6, -⟩ := idx1 t
  show Spmm.out (Spmm.iblk V c 0 t) (Spmm.iblk V c 1 t) (Spmm.iblk V c 2 t)
    = fun y => Cert.Gcn.clampedProduct (V c main_arg1) (V c main_v0) (((cfg1.win 3).blk t).view.emb y)
  refine spmm_out_eq _ _ _ _ (fun x => ?_) (fun x => ?_)
  · unfold Cert.Gcn.clampedProduct
    refine congrArg (max · Cert.Gcn.zero) (Finset.sum_congr rfl fun k _ => ?_)
    show @HMul.hMul EReal EReal EReal instHMul (V c main_arg1 (((cfg1.win 0).blk t).view.emb (Pay.asL x k))) (V c main_v0 (((cfg1.win 2).blk t).view.emb (Pay.asR x k))) = _
    refine congrArg₂ (fun a b : EReal => a * b) (congrArg (V c main_arg1) ?_) (congrArg (V c main_v0) ?_)
    · funext a; apply Fin.ext
      match a with
      | ⟨0, _⟩ => show win1_0.index t (0 : Fin 2) * 200 + 1 * (x 0).val = win1_3.index t (0 : Fin 2) * 400 + 1 * (0 + 1 * (x 0).val); omega
      | ⟨1, _⟩ => show win1_0.index t (1 : Fin 2) * 10000 + 1 * k.val = k.val; omega
    · funext a; apply Fin.ext
      match a with
      | ⟨0, _⟩ => show win1_2.index t (0 : Fin 2) * 10000 + 1 * k.val = k.val; omega
      | ⟨1, _⟩ => show win1_2.index t (1 : Fin 2) * 512 + 1 * (x 1).val = win1_3.index t (1 : Fin 2) * 512 + 1 * (0 + 1 * (x 1).val); omega
  · unfold Cert.Gcn.clampedProduct
    refine congrArg (max · Cert.Gcn.zero) (Finset.sum_congr rfl fun k _ => ?_)
    show @HMul.hMul EReal EReal EReal instHMul (V c main_arg1 (((cfg1.win 1).blk t).view.emb (Pay.asL x k))) (V c main_v0 (((cfg1.win 2).blk t).view.emb (Pay.asR x k))) = _
    refine congrArg₂ (fun a b : EReal => a * b) (congrArg (V c main_arg1) ?_) (congrArg (V c main_v0) ?_)
    · funext a; apply Fin.ext
      match a with
      | ⟨0, _⟩ => show win1_1.index t (0 : Fin 2) * 200 + 1 * (x 0).val = win1_3.index t (0 : Fin 2) * 400 + 1 * (200 + 1 * (x 0).val); omega
      | ⟨1, _⟩ => show win1_1.index t (1 : Fin 2) * 10000 + 1 * k.val = k.val; omega
    · funext a; apply Fin.ext
      match a with
      | ⟨0, _⟩ => show win1_2.index t (0 : Fin 2) * 10000 + 1 * k.val = k.val; omega
      | ⟨1, _⟩ => show win1_2.index t (1 : Fin 2) * 512 + 1 * (x 1).val = win1_3.index t (1 : Fin 2) * 512 + 1 * (0 + 1 * (x 1).val); omega

/-- An entry of the result array is in point `t`'s block iff its row is in the block's 400 rows. -/
theorem mem_blk1 (t : Fin cfg1.N) (i : S10000x512.Idx) :
    i ∈ ((cfg1.win 3).blk t).view.set ↔ ∀ a : Fin 2, win1_3.index t a * S400x512.size a ≤ (i a).val ∧ (i a).val < win1_3.index t a * S400x512.size a + S400x512.size a := by
  show i ∈ ((View.whole main_v1).slice (win1_3.rect t)).set ↔ _
  rw [View.set_slice_whole, Rect.mem_set_unit]
  exact Iff.rfl

/-- The twenty-five blocks tile the result array: row r is in block r / 400. -/
theorem cover1 (i : S10000x512.Idx) : ∃ t : Fin cfg1.N, (cfg1.win 3).flush t = true ∧ i ∈ ((cfg1.win 3).blk t).view.set := by
  have hi0 : (i 0).val < 10000 := (i 0).isLt
  have hi1 : (i 1).val < 512 := (i 1).isLt
  obtain ⟨t, ht⟩ := onto1 ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 512 ≤ (i 1).val ∧ (i 1).val < win1_3.index t (1 : Fin 2) * 512 + 512; omega

/-- The result array after the second region. -/
theorem layer_final (c : Dev nD) : (Spmm.dat V c).arrAt 3 cfg1.N = Cert.Gcn.clampedProduct (V c main_arg1) (V c main_v0) :=
  (Spmm.dat V c).arrAt_eq_of_cover 3 _ (fun t _ => layer_flushed V c t) cover1

end Cert.KernelIdeal.Val

end
-- ==== Proof.ResultKernelIdeal.lean ====
/-
  The kernel's result array on the extended reals is the layer of the three arguments: the second region leaves the clamped
  product of the adjacency it finds (the launch's, untouched by the first region) with the support array it finds, and that is
  what the first region left — the support of the launch's features and weight.
-/
import proofs.«134342_g12137577578942_retrytranche1_717_10_alg».proof.Proof.WholeKernelIdeal
import proofs.«134342_g12137577578942_retrytranche1_717_10_alg».proof.Proof.ValueKernelIdeal
import proofs.«134342_g12137577578942_retrytranche1_717_10_alg».proof.Proof.Layer

noncomputable section

namespace Cert.KernelIdeal.Result

open Cert.KernelIdeal Cert.KernelIdeal.Gen Idealize.ShloMosaic Idealize.ShloMosaic.TcCoe Idealize.SL.Sem

theorem result_eq (m : (ℓ : Loc nD τ sig) → Buf (Elt Ideal) ℓ) (c : Dev nD) :
    Whole.result m c = Cert.Gcn.layer (m ((c : Thread nD τ).loc main_arg0)) (m ((c : Thread nD τ).loc main_arg1)) (m ((c : Thread nD τ).loc main_arg2)) := by
  unfold Whole.result
  rw [Val.layer_final (Whole.U1 m) c]
  have h1 : Whole.U1 m c main_arg1 = m ((c : Thread nD τ).loc main_arg1) := Whole.W1_of_ne m c main_arg1 (by decide)
  have h2 : Whole.U1 m c main_v0 = Cert.Gcn.support (m ((c : Thread nD τ).loc main_arg0)) (m ((c : Thread nD τ).loc main_arg2)) :=
    (Whole.W1_arr m c 2).trans (Val.support_final (Whole.U0 m) c)
  rw [h1, h2]
  rfl

end Cert.KernelIdeal.Result

end
-- ==== Proof.ReferenceIsLayer.lean ====
/-
  The reference computes the layer: its two whole-array products and its clamp, read at an entry through the generated
  read-at-an-index lemmas, are the layer's sums with the same indices.
-/
import proofs.«134342_g12137577578942_retrytranche1_717_10_alg».proof.Proof.Gen.ReferenceIdeal.Read
import proofs.«134342_g12137577578942_retrytranche1_717_10_alg».proof.Proof.Layer
import Idealize.ShloMosaic.Lib.ValueIdx
import Idealize.ShloMosaic.Lib.Pipeline.Value
import Idealize.ShloMosaic.PureOps.Ideal.Laws

noncomputable section

namespace Cert.ReferenceIdeal.IsLayer

open Cert.ReferenceIdeal Cert.ReferenceIdeal.Gen Cert.ReferenceIdeal.Read Idealize.ShloMosaic ValueIdx

theorem lidx0 (i : S10000x512.Idx) (j : Fin 512) : lidx_main_v0 i j = ix2 ⟨(i 0).val, (i 0).isLt⟩ j :=
  funext fun a => Fin.ext (by match a with | ⟨0, _⟩ => rfl | ⟨1, _⟩ => rfl)
theorem ridx0 (i : S10000x512.Idx) (j : Fin 512) : ridx_main_v0 i j = ix2 j ⟨(i 1).val, (i 1).isLt⟩ :=
  funext fun a => Fin.ext (by match a with | ⟨0, _⟩ => rfl | ⟨1, _⟩ => rfl)
theorem lidx1 (i : S10000x512.Idx) (k : Fin 10000) : lidx_main_v1 i k = ix2 ⟨(i 0).val, (i 0).isLt⟩ k :=
  funext fun a => Fin.ext (by match a with | ⟨0, _⟩ => rfl | ⟨1, _⟩ => rfl)
theorem ridx1 (i : S10000x512.Idx) (k : Fin 10000) : ridx_main_v1 i k = ix2 k ⟨(i 1).val, (i 1).isLt⟩ :=
  funext fun a => Fin.ext (by match a with | ⟨0, _⟩ => rfl | ⟨1, _⟩ => rfl)

/-- The reference's first product is the support. -/
theorem support_eq (x0 : S10000x512.Idx → EReal) (x2 : S512x512.Idx → EReal) :
    val_main_v0 (F := Ideal) x0 x2 = Cert.Gcn.support x0 x2 := by
  funext i
  rw [val_main_v0_apply]
  unfold Cert.Gcn.support
  simp only [lidx0, ridx0]
  rfl

/-- The reference's result is the layer. -/
theorem result_eq (x0 : S10000x512.Idx → EReal) (x1 : S10000x10000.Idx → EReal) (x2 : S512x512.Idx → EReal) :
    val_main_v2 (F := Ideal) x0 x1 x2 = Cert.Gcn.layer x0 x1 x2 := by
  funext i
  rw [val_main_v2_apply, val_main_v1_apply, val_main_call0_v0_apply, val_main_call0_cst_apply, support_eq]
  unfold Cert.Gcn.layer Cert.Gcn.clampedProduct
  simp only [lidx1, ridx1]
  rfl

end Cert.ReferenceIdeal.IsLayer

end
-- ==== Proof.lean ====
/-
  One graph-convolution layer, out = max(adj · (features · weight), 0) on 10000 nodes with 512 features: a kernel of two
  pipelined regions against the plain two-product reference.

  The kernel's first region computes the support, features · weight, in five blocks of 2000 rows; its second streams the
  adjacency as two interleaved 200-row panels per grid point — two windows on the ONE adjacency array — against the whole
  support and writes 400 clamped output rows per point.  On the extended reals a change of float format is the identity and
  every product into a zero accumulator is the plain sum, so both programs evaluate the same arrangement of sums,
      layer[r, l] = max(Σ_k adj[r, k] · (Σ_j features[k, j] · weight[j, l]), 0),
  and the two results are equal entry by entry with no appeal to finiteness: the precondition is never opened.

  The frames (termination, no fault, arguments unchanged) of both kernel programs come from one run theorem stated at any float
  instance: each region's body is run symbolically once at a generic grid point, the regions are chained as segments, and
  the adjacency's full share is dealt in halves to the two windows that read it and joined again at the region's exit.  The
  reference's frame is its run with the result dropped.  The idealization rewrote nothing, so `preserves` is trivial.
-/
import proofs.«134342_g12137577578942_retrytranche1_717_10_alg».proof.Defs
import proofs.«134342_g12137577578942_retrytranche1_717_10_alg».proof.Proof.Gen.Kernel
import proofs.«134342_g12137577578942_retrytranche1_717_10_alg».proof.Proof.Gen.KernelIdeal
import proofs.«134342_g12137577578942_retrytranche1_717_10_alg».proof.Proof.Gen.ReferenceIdeal
import proofs.«134342_g12137577578942_retrytranche1_717_10_alg».proof.Proof.Gen.Pre_finite_inputs
import proofs.«134342_g12137577578942_retrytranche1_717_10_alg».proof.Proof.WholeKernel
import proofs.«134342_g12137577578942_retrytranche1_717_10_alg».proof.Proof.WholeKernelIdeal
import proofs.«134342_g12137577578942_retrytranche1_717_10_alg».proof.Proof.ResultKernelIdeal
import proofs.«134342_g12137577578942_retrytranche1_717_10_alg».proof.Proof.ReferenceIsLayer
import proofs.«134342_g12137577578942_retrytranche1_717_10_alg».proof.Proof.Gen.ReferenceIdeal.Run
import proofs.«134342_g12137577578942_retrytranche1_717_10_alg».proof.Proof.Gen.ReferenceIdeal.Read
import Idealize.ShloMosaic.Adequacy
import Idealize.ShloMosaic.Init

noncomputable section

namespace Cert.Proof

open Idealize.ShloMosaic Idealize.ShloMosaic.TcCoe Idealize.SL.Sem

/-- The word-level kernel runs and keeps its arguments: the run theorem at the bit-exact instance, the result's contents dropped. -/
theorem frame_kernel : Cert.frame_Kernel := fun m ρ _ =>
  (θ_run Cert.Kernel.defs _ _).mono (fun _ h c => (h c).2) (Cert.Kernel.Whole.run (F := Bits) m ρ)

/-- The idealized kernel likewise, at the extended reals. -/
theorem frame_kernelIdeal : Cert.frame_KernelIdeal := fun m ρ _ =>
  (θ_run Cert.KernelIdeal.defs _ _).mono (fun _ h c => (h c).2) (Cert.KernelIdeal.Whole.run (F := Ideal) m ρ)

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both programs end with the layer of the arguments in their result arrays. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (Cert.KernelIdeal.Result.result_eq m c), (h c).2⟩)
      (Cert.KernelIdeal.Whole.run (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v2_eq, Cert.ReferenceIdeal.IsLayer.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
